-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048x2048 .f32) (main_arg3 : FVec F S2048 .f32) (main_arg4 : FVec F S2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S256x2048 : Shape := ⟨2, ![256, 2048]⟩
abbrev S512x2048 : Shape := ⟨2, ![512, 2048]⟩
abbrev S512 : Shape := ⟨1, ![512]⟩
abbrev S256x512 : Shape := ⟨2, ![256, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S4096x2048, .f32⟩
  | .hbm, ⟨8, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S512x2048, .bf16⟩
  | .local _ .vmem, ⟨13, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S256x2048_S256x2048_0_0 : ∀ a, (![0, 0] : Fin 2 → Nat) a + S256x2048.size a ≤ S256x2048.size a
  h_S256x2048 : 0 < S256x2048.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S2048.size a
  hwx0_4 : ∀ i : grid0.Coords, EltTy.bits .f32 = 32 ∨ (Rect.block (s := S2048) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S2048.size a
  hwx0_5 : ∀ i : grid0.Coords, EltTy.bits .f32 = 32 ∨ (Rect.block (s := S2048) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S2048.size a
  hwx0_6 : ∀ i : grid0.Coords, EltTy.bits .f32 = 32 ∨ (Rect.block (s := S2048) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S4096x2048.size a
  hwx0_7 : ∀ i : grid0.Coords, EltTy.bits .f32 = 32 ∨ (Rect.block (s := S4096x2048) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S4096x2048.size a
  hwx0_8 : ∀ i : grid0.Coords, EltTy.bits .f32 = 32 ∨ (Rect.block (s := S4096x2048) S256x512.size (cc0_transform_8 i) (hinb0_8 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S4096x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.CaseValues.lean ====
/-
  What one grid step leaves behind, as values.

  The grid is 4 tiles of output features (outer) by 16 tiles of batch rows (inner). At the first batch tile of an
  output-feature tile the step first computes, from the tile's 512 × 2048 blocks of the weight mean, the weight's
  log standard deviation and the weight noise, the two tables it keeps for the whole row of batch tiles:
    the sampled weight        mean + e^{log σ} · noise,
    the weight's variance     e^{log σ} · e^{log σ},
  and then, like every other step, forms its 256 × 512 block of the two results from the batch block and the two
  tables: the product of the batch block with the transposed sampled weight plus the sampled bias, and the square
  root of the product of the squared batch block with the transposed variance plus the bias variance.

  Here each of these is identified with the step's arithmetic as ONE term of the blocks the step reads: at a first
  step the tables are the two table terms of the weight blocks and the results are computed from those very terms;
  at a later step the tables are untouched and the results are computed from the tables the step found. The
  statements hold for any interpretation of the float operations.
-/
import proofs.«113625_j28011776705085_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The zero offsets of a matrix block, however they are spelt. -/
theorem zeros2 : (![0, 0] : Fin 2 → Nat) = fun _ => 0 := funext fun a => by fin_cases a <;> rfl

/-- The zero offset of a vector block. -/
theorem zeros1 : (![0] : Fin 1 → Nat) = fun _ => 0 := funext fun a => by fin_cases a; rfl

variable (c : Dev nD) (i : grid0.Coords)
  (a2 : Memref sig .tc .vmem S256x2048 .f32) (h2 : a2.IsWhole)
  (a3 : Memref sig .tc .vmem S512x2048 .f32) (h3 : a3.IsWhole)
  (a4 : Memref sig .tc .vmem S512x2048 .f32) (h4 : a4.IsWhole)
  (a5 : Memref sig .tc .vmem S512x2048 .f32) (h5 : a5.IsWhole)
  (a6 : Memref sig .tc .vmem S512 .f32) (h6 : a6.IsWhole)
  (a7 : Memref sig .tc .vmem S512 .f32) (h7 : a7.IsWhole)
  (a8 : Memref sig .tc .vmem S512 .f32) (h8 : a8.IsWhole)
  (a9 : Memref sig .tc .vmem S256x512 .f32) (h9 : a9.IsWhole)
  (a10 : Memref sig .tc .vmem S256x512 .f32) (h10 : a10.IsWhole)
  (a11 : Memref sig .tc .vmem S512x2048 .bf16) (h11 : a11.IsWhole)
  (a12 : Memref sig .tc .vmem S512x2048 .bf16) (h12 : a12.IsWhole)
  (x0 : Vec F S256x2048 .f32) (x1 x2 x3 : Vec F S512x2048 .f32) (x4 x5 x6 : Vec F S512 .f32)

/-! ## A first step of a row of batch tiles -/

/-- The sampled-weight table a first step leaves: mean + e^{log σ} · noise of the step's three weight blocks. -/
theorem first_weight (hc : cond0_0 i) :
    sout0_A_0 c i a2 h2 a3 h3 a4 h4 a5 h5 a6 h6 a7 h7 a8 h8 a9 h9 a10 h10 a11 h11 a12 h12 hc x0 x1 x2 x3 x4 x5 x6 = k0_pay2 x1 x2 x3 := by
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero zeros2]
  simp only [View.readAt_eq_ld, h3.read_unread, h4.read_unread, h5.read_unread, View.ld_unit_zero (S := S512x2048) zeros2]

/-- The variance table a first step leaves: e^{log σ} · e^{log σ} of the step's log-deviation block. -/
theorem first_variance (hc : cond0_0 i) :
    sout0_A_1 c i a2 h2 a3 h3 a4 h4 a5 h5 a6 h6 a7 h7 a8 h8 a9 h9 a10 h10 a11 h11 a12 h12 hc x0 x1 x2 x3 x4 x5 x6 = k0_pay3 x2 := by
  unfold sout0_A_1
  rw [View.read_writes_eq_canon _ _ _ (scover0_A_1 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero zeros2]
  simp only [View.readAt_eq_ld, h4.read_unread, View.ld_unit_zero (S := S512x2048) zeros2]

/-- The first result's block at a first step: computed from the sampled-weight table the step has just formed. -/
theorem first_output (hc : cond0_0 i) :
    out0_A_7 c i a2 h2 a3 h3 a4 h4 a5 h5 a6 h6 a7 h7 a8 h8 a9 h9 a10 h10 a11 h11 a12 h12 hc x0 x1 x2 x3 x4 x5 x6 = k0_pay5 x0 x4 x5 x6 (k0_pay2 x1 x2 x3) := by
  unfold out0_A_7
  rw [View.read_writes_eq_canon _ _ _ (cover0_A_7 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero zeros2, View.readCov_unit_zero (S := S512x2048) _ zeros2]
  simp only [View.readAt_eq_ld, h2.read_unread, h3.read_unread, h4.read_unread, h5.read_unread, h6.read_unread,
    h7.read_unread, h8.read_unread, View.ld_unit_zero (S := S512x2048) zeros2, View.ld_unit_zero (S := S256x2048) zeros2,
    View.ld_unit_zero (S := S512) zeros1]

/-- The second result's block at a first step: computed from the variance table the step has just formed. -/
theorem first_deviation (hc : cond0_0 i) :
    out0_A_8 c i a2 h2 a3 h3 a4 h4 a5 h5 a6 h6 a7 h7 a8 h8 a9 h9 a10 h10 a11 h11 a12 h12 hc x0 x1 x2 x3 x4 x5 x6 = k0_pay6 x0 x5 (k0_pay3 x2) := by
  unfold out0_A_8
  rw [View.read_writes_eq_canon _ _ _ (cover0_A_8 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero zeros2, View.readCov_unit_zero (S := S512x2048) _ zeros2]
  simp only [View.readAt_eq_ld, h2.read_unread, h4.read_unread, h7.read_unread,
    View.ld_unit_zero (S := S512x2048) zeros2, View.ld_unit_zero (S := S256x2048) zeros2,
    View.ld_unit_zero (S := S512) zeros1]

/-! ## A later step: the tables as found -/

variable (w v : Vec F S512x2048 .bf16)

/-- The first result's block at a later step: computed from the sampled-weight table the step found. -/
theorem later_output (hc : ¬cond0_0 i) :
    out0_B_7 c i a2 h2 a3 h3 a4 h4 a5 h5 a6 h6 a7 h7 a8 h8 a9 h9 a10 h10 a11 h11 a12 h12 hc x0 x1 x2 x3 x4 x5 x6 w v = k0_pay5 x0 x4 x5 x6 w := by
  unfold out0_B_7
  rw [View.read_writes_eq_canon _ _ _ (cover0_B_7 c i a2 h2 a3 h3 a4 h4 a5 h5 a6 h6 a7 h7 a8 h8 a9 h9 a10 h10 a11 h11 a12 h12 hc x0 x1 x2 x3 x4 x5 x6 w v)]
  unfold kernelRun0_B
  dsimp only
  sl_unfold_words
  rw [View.canon_unit_zero zeros2]
  simp only [View.readAt_eq_ld, h2.read_unread, h6.read_unread, h7.read_unread, h8.read_unread, h11.read_unread,
    View.ld_unit_zero (S := S512x2048) zeros2, View.ld_unit_zero (S := S256x2048) zeros2,
    View.ld_unit_zero (S := S512) zeros1]

/-- The second result's block at a later step: computed from the variance table the step found. -/
theorem later_deviation (hc : ¬cond0_0 i) :
    out0_B_8 c i a2 h2 a3 h3 a4 h4 a5 h5 a6 h6 a7 h7 a8 h8 a9 h9 a10 h10 a11 h11 a12 h12 hc x0 x1 x2 x3 x4 x5 x6 w v = k0_pay6 x0 x5 v := by
  unfold out0_B_8
  rw [View.read_writes_eq_canon _ _ _ (cover0_B_8 c i a2 h2 a3 h3 a4 h4 a5 h5 a6 h6 a7 h7 a8 h8 a9 h9 a10 h10 a11 h11 a12 h12 hc x0 x1 x2 x3 x4 x5 x6 w v)]
  unfold kernelRun0_B
  dsimp only
  sl_unfold_words
  rw [View.canon_unit_zero zeros2]
  simp only [View.readAt_eq_ld, h2.read_unread, h7.read_unread, h12.read_unread,
    View.ld_unit_zero (S := S512x2048) zeros2, View.ld_unit_zero (S := S256x2048) zeros2,
    View.ld_unit_zero (S := S512) zeros1]

end Cert.KernelIdeal.CaseValues

end
-- ==== Proof.Spec.lean ====
/-
  A linear layer whose weights and bias are sampled by reparameterisation, and the standard deviation its
  parameters' noise gives the result — the specification, over the extended reals, index by index.

  With x the 4096 × 2048 batch, and for output feature o and input feature k
      W (o, k) = μ_w (o, k) + e^{λ_w (o, k)} · ε_w (o, k)        the sampled weight,
      S (o, k) = e^{λ_w (o, k)} · e^{λ_w (o, k)}                   the weight's variance,
      b (o)    = μ_b (o) + e^{λ_b (o)} · ε_b (o)                   the sampled bias,
      s (o)    = e^{λ_b (o)} · e^{λ_b (o)}                          the bias's variance,
  the two results at batch row r and output feature o are
      output (r, o)    = ∑ₖ x (r, k) · W (o, k) + b (o),
      deviation (r, o) = √( ∑ₖ (x (r, k) · x (r, k)) · S (o, k) + s (o) ).
  Each sum runs over the 2048 input features; on the extended reals a finite sum does not depend on its order,
  so no order is named. Nothing here needs the arguments to be finite.
-/
import Idealize.ShloMosaic.PureOps.Ideal
import Idealize.ShloMosaic.Lib.ValueIdx

noncomputable section

open scoped BigOperators

namespace Cert.SampledLinear

open Idealize.ShloMosaic Idealize.ShloMosaic.ValueIdx

/-- A 2048 × 2048 table indexed by (output feature, input feature). -/
abbrev WeightArr : Type := FVec Ideal ⟨2, ![2048, 2048]⟩ .f32
/-- A vector indexed by output feature. -/
abbrev BiasArr : Type := FVec Ideal ⟨1, ![2048]⟩ .f32
/-- A 4096 × 2048 table: the batch (rows × input features) and each result (rows × output features). -/
abbrev BatchArr : Type := FVec Ideal ⟨2, ![4096, 2048]⟩ .f32

/-- The sampled weight W (o, k). -/
def weight (wmu wls eps : WeightArr) (o k : Fin 2048) : EReal :=
  wmu (ix2 o k) + Ideal.exp (wls (ix2 o k)) * eps (ix2 o k)

/-- The weight's variance S (o, k). -/
def weightVar (wls : WeightArr) (o k : Fin 2048) : EReal :=
  Ideal.exp (wls (ix2 o k)) * Ideal.exp (wls (ix2 o k))

/-- The sampled bias b (o). -/
def bias (bmu bls epsb : BiasArr) (o : Fin 2048) : EReal :=
  bmu (ix1 o) + Ideal.exp (bls (ix1 o)) * epsb (ix1 o)

/-- The bias's variance s (o). -/
def biasVar (bls : BiasArr) (o : Fin 2048) : EReal :=
  Ideal.exp (bls (ix1 o)) * Ideal.exp (bls (ix1 o))

/-- The layer's output at row r and output feature o. -/
def outputAt (x : BatchArr) (wmu wls eps : WeightArr) (bmu bls epsb : BiasArr) (r : Fin 4096) (o : Fin 2048) : EReal :=
  (∑ k : Fin 2048, x (ix2 r k) * weight wmu wls eps o k) + bias bmu bls epsb o

/-- The propagated standard deviation at row r and output feature o. -/
def deviationAt (x : BatchArr) (wls : WeightArr) (bls : BiasArr) (r : Fin 4096) (o : Fin 2048) : EReal :=
  Ideal.sqrt ((∑ k : Fin 2048, (x (ix2 r k) * x (ix2 r k)) * weightVar wls o k) + biasVar bls o)

/-- The first result as one array. -/
def output (x : BatchArr) (wmu wls eps : WeightArr) (bmu bls epsb : BiasArr) : BatchArr :=
  fun i => outputAt x wmu wls eps bmu bls epsb (i 0) (i 1)

/-- The second result as one array. -/
def deviation (x : BatchArr) (wls : WeightArr) (bls : BiasArr) : BatchArr :=
  fun i => deviationAt x wls bls (i 0) (i 1)

theorem output_ix2 (x : BatchArr) (wmu wls eps : WeightArr) (bmu bls epsb : BiasArr) (r : Fin 4096) (o : Fin 2048) :
    output x wmu wls eps bmu bls epsb (ix2 r o) = outputAt x wmu wls eps bmu bls epsb r o := rfl

theorem deviation_ix2 (x : BatchArr) (wls : WeightArr) (bls : BiasArr) (r : Fin 4096) (o : Fin 2048) :
    deviation x wls bls (ix2 r o) = deviationAt x wls bls r o := rfl

end Cert.SampledLinear

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.PayloadAt.lean ====
/-
  The step's arithmetic read entry by entry, over the extended reals.

  The two tables are entrywise: the sampled weight is mean + e^{log σ} · noise and the variance is
  e^{log σ} · e^{log σ}, the change of float format in between being the identity on the extended reals. Each of
  the two results at row p and column q of the step's 256 × 512 block is a contraction over the 2048 input
  features of the batch block's row p with the table's ROW q (both operands are contracted on their last axis, so
  no transpose is formed), plus the entry q of a 512-vector laid as one row and repeated down the 256 rows.
-/
import proofs.«113625_j28011776705085_2_alg».proof.Proof.Gen.KernelIdeal.Skeleton
import proofs.«113625_j28011776705085_2_alg».proof.Proof.LibTransposedDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.PayloadAt

open Cert.KernelIdeal Cert.KernelIdeal.Gen

/-- The step's contraction pairs the last axis of a 256 × 2048 block with the last axis of a 512 × 2048 table. -/
theorem contraction_dims :
    dot_S256x2048_S512x2048_S256x512_1_1_0_0_n_n = DotDims.transposedRhs 256 2048 512 := rfl

/-- The sampled-weight table, entry by entry: mean + e^{log σ} · noise. -/
theorem weight_table_apply (wmu wls eps : FVec Ideal S512x2048 .f32) (j : S512x2048.Idx) :
    k0_pay2 (F := Ideal) wmu wls eps j = wmu j + Ideal.exp (wls j) * eps j := by
  unfold k0_pay2 k0_pay1
  dsimp only
  rw [shapeCast_self]
  rfl

/-- The variance table, entry by entry: e^{log σ} · e^{log σ}. -/
theorem variance_table_apply (wls : FVec Ideal S512x2048 .f32) (j : S512x2048.Idx) :
    k0_pay3 (F := Ideal) wls j = Ideal.exp (wls j) * Ideal.exp (wls j) := by
  unfold k0_pay3 k0_pay1
  dsimp only
  rw [shapeCast_self]
  rfl

/-- A 512-vector laid as one row and repeated down 256 rows reads, at (p, q), the vector at q. -/
theorem row_spread_apply (b : FVec Ideal S512 .f32) (p : Fin 256) (q : Fin 512) :
    broadcastTo S256x512 (shapeCast S1x512 b shapeCasts_S512_S1x512) broadcasts_S1x512_S256x512 (ix2 p q) = b (ix1 q) :=
  (broadcastTo_1b_ab_apply _ broadcasts_S1x512_S256x512 p q).trans (shapeCast_a_1a_apply b shapeCasts_S512_S1x512 0 q)

/-- The first result's block at (p, q): the row p of the batch block against the row q of the table, plus the
    sampled bias at q. -/
theorem output_block_apply (x : FVec Ideal S256x2048 .f32) (bmu bls epsb : FVec Ideal S512 .f32)
    (w : FVec Ideal S512x2048 .bf16) (p : Fin 256) (q : Fin 512) :
    k0_pay5 (F := Ideal) x bmu bls epsb w (ix2 p q)
      = (∑ k : Fin 2048, x (ix2 p k) * w (ix2 q k)) + (bmu (ix1 q) + Ideal.exp (bls (ix1 q)) * epsb (ix1 q)) := by
  unfold k0_pay5 k0_pay4
  dsimp only
  refine (addf_apply _ _ _).trans ?_
  refine congrArg₂ (· + ·) ?_ ?_
  · exact TransposedDot.matmul_transposedRhs _ contraction_dims none _ w p q
  · exact (row_spread_apply _ p q)

/-- The second result's block at (p, q): the square root of the squared row p of the batch block against the row q
    of the variance table, plus the bias variance at q. -/
theorem deviation_block_apply (x : FVec Ideal S256x2048 .f32) (bls : FVec Ideal S512 .f32)
    (v : FVec Ideal S512x2048 .bf16) (p : Fin 256) (q : Fin 512) :
    k0_pay6 (F := Ideal) x bls v (ix2 p q)
      = Ideal.sqrt ((∑ k : Fin 2048, (x (ix2 p k) * x (ix2 p k)) * v (ix2 q k))
          + Ideal.exp (bls (ix1 q)) * Ideal.exp (bls (ix1 q))) := by
  unfold k0_pay6 k0_pay4
  dsimp only
  refine congrArg Ideal.sqrt ?_
  refine (addf_apply _ _ _).trans ?_
  refine congrArg₂ (· + ·) ?_ ?_
  · exact TransposedDot.matmul_transposedRhs _ contraction_dims none _ v p q
  · exact (row_spread_apply _ p q)

end Cert.KernelIdeal.PayloadAt

end
-- ==== Proof.Tiles.lean ====
/-
  The layer cut into tiles: 16 tiles of 256 batch rows by 4 tiles of 512 output features.

  Row p of batch tile s is row 256·s + p of the batch; output feature q of feature tile j is feature 512·j + q.
  Over arrays read tile by tile — a block of the batch whose (p, k) is the batch at (256·s + p, k), blocks of the
  weight parameters whose (q, k) is the parameter at (512·j + q, k), blocks of the bias parameters whose q is the
  parameter at 512·j + q — one step's two tables are the specification's sampled weight W and variance S
  restricted to feature tile j, and the step's two result blocks, formed from those tables, are the
  specification's output and deviation at (256·s + p, 512·j + q). Everything is an identity of extended reals
  entry by entry: the contraction's terms agree one by one, so no law of arithmetic is used beyond rewriting equals.
-/
import proofs.«113625_j28011776705085_2_alg».proof.Proof.Spec
import proofs.«113625_j28011776705085_2_alg».proof.Proof.PayloadAt

noncomputable section

open scoped BigOperators
open Idealize.ShloMosaic Idealize.ShloMosaic.ValueIdx

namespace Cert.SampledLinear.Tiles

open Cert.SampledLinear Cert.KernelIdeal Cert.KernelIdeal.Gen Cert.KernelIdeal.PayloadAt

/-- Row p of batch tile s. -/
def batchRow (s : Fin 16) (p : Fin 256) : Fin 4096 :=
  ⟨256 * s.val + p.val, by have := s.isLt; have := p.isLt; omega⟩

/-- Output feature q of feature tile j. -/
def featRow (j : Fin 4) (q : Fin 512) : Fin 2048 :=
  ⟨512 * j.val + q.val, by have := j.isLt; have := q.isLt; omega⟩

theorem batchRow_val (s : Fin 16) (p : Fin 256) : (batchRow s p).val = 256 * s.val + p.val := rfl
theorem featRow_val (j : Fin 4) (q : Fin 512) : (featRow j q).val = 512 * j.val + q.val := rfl

/-- The sampled weight W restricted to feature tile j, as a 512 × 2048 table. -/
def weightTile (wmu wls eps : WeightArr) (j : Fin 4) : FVec Ideal S512x2048 .bf16 :=
  fun y => weight wmu wls eps (featRow j (y 0)) (y 1)

/-- The variance S restricted to feature tile j. -/
def varianceTile (wls : WeightArr) (j : Fin 4) : FVec Ideal S512x2048 .bf16 :=
  fun y => weightVar wls (featRow j (y 0)) (y 1)

variable (X : BatchArr) (wmu wls eps : WeightArr) (bmu bls epsb : BiasArr) (s : Fin 16) (j : Fin 4)

/-- The step's sampled-weight table, formed from the blocks of feature tile j, is W on that tile. -/
theorem weight_table_eq (x1 x2 x3 : FVec Ideal S512x2048 .f32)
    (h1 : ∀ (q : Fin 512) (k : Fin 2048), x1 (ix2 q k) = wmu (ix2 (featRow j q) k))
    (h2 : ∀ (q : Fin 512) (k : Fin 2048), x2 (ix2 q k) = wls (ix2 (featRow j q) k))
    (h3 : ∀ (q : Fin 512) (k : Fin 2048), x3 (ix2 q k) = eps (ix2 (featRow j q) k)) :
    k0_pay2 (F := Ideal) x1 x2 x3 = weightTile wmu wls eps j := by
  funext y
  obtain ⟨q, k, rfl⟩ : ∃ (q : Fin 512) (k : Fin 2048), y = ix2 q k := ⟨y 0, y 1, eq_ix2 y⟩
  rw [weight_table_apply, h1, h2, h3]
  rfl

/-- The step's variance table, formed from the log-deviation block of feature tile j, is S on that tile. -/
theorem variance_table_eq (x2 : FVec Ideal S512x2048 .f32)
    (h2 : ∀ (q : Fin 512) (k : Fin 2048), x2 (ix2 q k) = wls (ix2 (featRow j q) k)) :
    k0_pay3 (F := Ideal) x2 = varianceTile wls j := by
  funext y
  obtain ⟨q, k, rfl⟩ : ∃ (q : Fin 512) (k : Fin 2048), y = ix2 q k := ⟨y 0, y 1, eq_ix2 y⟩
  rw [variance_table_apply, h2]
  rfl

/-- The first result's block of batch tile s and feature tile j, formed from W on the tile, is the output there. -/
theorem output_block_eq (x0 : FVec Ideal S256x2048 .f32) (b4 b5 b6 : FVec Ideal S512 .f32)
    (hx : ∀ (p : Fin 256) (k : Fin 2048), x0 (ix2 p k) = X (ix2 (batchRow s p) k))
    (h4 : ∀ q : Fin 512, b4 (ix1 q) = bmu (ix1 (featRow j q)))
    (h5 : ∀ q : Fin 512, b5 (ix1 q) = bls (ix1 (featRow j q)))
    (h6 : ∀ q : Fin 512, b6 (ix1 q) = epsb (ix1 (featRow j q)))
    (p : Fin 256) (q : Fin 512) :
    k0_pay5 (F := Ideal) x0 b4 b5 b6 (weightTile wmu wls eps j) (ix2 p q)
      = outputAt X wmu wls eps bmu bls epsb (batchRow s p) (featRow j q) := by
  rw [output_block_apply, h4, h5, h6]
  unfold outputAt bias
  refine congrArg₂ (· + ·) (Finset.sum_congr rfl fun k _ => ?_) rfl
  rw [hx]
  rfl

/-- The second result's block, formed from S on the tile, is the deviation there. -/
theorem deviation_block_eq (x0 : FVec Ideal S256x2048 .f32) (b5 : FVec Ideal S512 .f32)
    (hx : ∀ (p : Fin 256) (k : Fin 2048), x0 (ix2 p k) = X (ix2 (batchRow s p) k))
    (h5 : ∀ q : Fin 512, b5 (ix1 q) = bls (ix1 (featRow j q)))
    (p : Fin 256) (q : Fin 512) :
    k0_pay6 (F := Ideal) x0 b5 (varianceTile wls j) (ix2 p q)
      = deviationAt X wls bls (batchRow s p) (featRow j q) := by
  rw [deviation_block_apply, h5]
  unfold deviationAt biasVar
  refine congrArg Ideal.sqrt (congrArg₂ (· + ·) (Finset.sum_congr rfl fun k _ => ?_) rfl)
  rw [hx]
  rfl

end Cert.SampledLinear.Tiles

end
-- ==== Proof.Blocks.lean ====
/-
  Which part of each argument a grid step sees.

  Step t of the 64 is the pair (feature tile, batch tile) = (t / 16, t mod 16): the feature tile is the slow
  coordinate. At step t the batch window holds rows 256·(t mod 16) … of the batch, all 2048 columns; each of the
  three weight-parameter windows holds rows 512·(t / 16) … of its 2048 × 2048 table; each of the three
  bias-parameter windows holds entries 512·(t / 16) … of its vector; and each of the two result windows is the
  block with corner (256·(t mod 16), 512·(t / 16)) of its 4096 × 2048 array. The 64 result blocks tile the array:
  entry (r, o) lies in the block of step 16·(o / 512) + r / 256.
-/
import proofs.«113625_j28011776705085_2_alg».proof.Proof.Gen.KernelIdeal.Frame
import proofs.«113625_j28011776705085_2_alg».proof.Proof.Tiles
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.SampledLinear.Tiles

variable {F : FTy → Type} [FloatOps F]
variable (m : (ℓ : Loc nD τ sig) → Buf (Elt F) ℓ)

/-- The feature tile of step t. -/
def tileOf (t : Fin cfg0.N) : Fin 4 :=
  ⟨t.val / 16, by have h := t.isLt; have hN : cfg0.N = 64 := N_0; omega⟩

/-- The batch tile of step t. -/
def stepOf (t : Fin cfg0.N) : Fin 16 := ⟨t.val % 16, Nat.mod_lt _ (by decide)⟩

theorem tileOf_val (t : Fin cfg0.N) : (tileOf t).val = t.val / 16 := rfl
theorem stepOf_val (t : Fin cfg0.N) : (stepOf t).val = t.val % 16 := rfl

/-! ## The windows' block indices, decided over the 64 steps -/

theorem index_batch : ∀ t : Fin cfg0.N, win0_0.index t (0 : Fin 2) = t.val % 16 ∧ win0_0.index t (1 : Fin 2) = 0 :=
  (by decide +kernel : ∀ t : Fin grid0.N, _)
theorem index_weight1 : ∀ t : Fin cfg0.N, win0_1.index t (0 : Fin 2) = t.val / 16 ∧ win0_1.index t (1 : Fin 2) = 0 :=
  (by decide +kernel : ∀ t : Fin grid0.N, _)
theorem index_weight2 : ∀ t : Fin cfg0.N, win0_2.index t (0 : Fin 2) = t.val / 16 ∧ win0_2.index t (1 : Fin 2) = 0 :=
  (by decide +kernel : ∀ t : Fin grid0.N, _)
theorem index_weight3 : ∀ t : Fin cfg0.N, win0_3.index t (0 : Fin 2) = t.val / 16 ∧ win0_3.index t (1 : Fin 2) = 0 :=
  (by decide +kernel : ∀ t : Fin grid0.N, _)
theorem index_bias4 : ∀ t : Fin cfg0.N, win0_4.index t (0 : Fin 1) = t.val / 16 :=
  (by decide +kernel : ∀ t : Fin grid0.N, _)
theorem index_bias5 : ∀ t : Fin cfg0.N, win0_5.index t (0 : Fin 1) = t.val / 16 :=
  (by decide +kernel : ∀ t : Fin grid0.N, _)
theorem index_bias6 : ∀ t : Fin cfg0.N, win0_6.index t (0 : Fin 1) = t.val / 16 :=
  (by decide +kernel : ∀ t : Fin grid0.N, _)
theorem index_result7 : ∀ t : Fin cfg0.N, win0_7.index t (0 : Fin 2) = t.val % 16 ∧ win0_7.index t (1 : Fin 2) = t.val / 16 :=
  (by decide +kernel : ∀ t : Fin grid0.N, _)
theorem index_result8 : ∀ t : Fin cfg0.N, win0_8.index t (0 : Fin 2) = t.val % 16 ∧ win0_8.index t (1 : Fin 2) = t.val / 16 :=
  (by decide +kernel : ∀ t : Fin grid0.N, _)

/-! ## The argument blocks -/

/-- The batch block at step t: row p is row 256·(t mod 16) + p of the batch. -/
theorem batch_read (c : Dev nD) (t : Fin cfg0.N) (p : Fin 256) (k : Fin 2048) :
    (iblk m c 0 t : Vec F S256x2048 .f32) (ix2 p k) = m ((c : Thread nD τ).loc main_arg0) (ix2 (batchRow (stepOf t) p) k) := by
  obtain ⟨e0, e1⟩ := index_batch t
  unfold iblk
  rw [View.read_apply]
  show V m c main_arg0 (((cfg0.win 0).blk t).view.emb (ix2 p k)) = _
  refine congrArg (m ((c : Thread nD τ).loc main_arg0)) ?_
  funext a
  apply Fin.ext
  match a with
  | ⟨0, _⟩ => show win0_0.index t (0 : Fin 2) * 256 + 1 * p.val = _; rw [e0]; show t.val % 16 * 256 + 1 * p.val = 256 * (t.val % 16) + p.val; omega
  | ⟨1, _⟩ => show win0_0.index t (1 : Fin 2) * 2048 + 1 * k.val = k.val; rw [e1]; omega

/-- The weight-mean block at step t: row q is row 512·(t / 16) + q of the table. -/
theorem weight_mean_read (c : Dev nD) (t : Fin cfg0.N) (p : Fin 512) (k : Fin 2048) :
    (iblk m c 1 t : Vec F S512x2048 .f32) (ix2 p k) = m ((c : Thread nD τ).loc main_arg1) (ix2 (featRow (tileOf t) p) k) := by
  obtain ⟨e0, e1⟩ := index_weight1 t
  unfold iblk
  rw [View.read_apply]
  show V m c main_arg1 (((cfg0.win 1).blk t).view.emb (ix2 p k)) = _
  refine congrArg (m ((c : Thread nD τ).loc main_arg1)) ?_
  funext a
  apply Fin.ext
  match a with
  | ⟨0, _⟩ => show win0_1.index t (0 : Fin 2) * 512 + 1 * p.val = _; rw [e0]; show t.val / 16 * 512 + 1 * p.val = 512 * (t.val / 16) + p.val; omega
  | ⟨1, _⟩ => show win0_1.index t (1 : Fin 2) * 2048 + 1 * k.val = k.val; rw [e1]; omega

/-- The weight log-deviation block at step t. -/
theorem weight_logdev_read (c : Dev nD) (t : Fin cfg0.N) (p : Fin 512) (k : Fin 2048) :
    (iblk m c 2 t : Vec F S512x2048 .f32) (ix2 p k) = m ((c : Thread nD τ).loc main_arg2) (ix2 (featRow (tileOf t) p) k) := by
  obtain ⟨e0, e1⟩ := index_weight2 t
  unfold iblk
  rw [View.read_apply]
  show V m c main_arg2 (((cfg0.win 2).blk t).view.emb (ix2 p k)) = _
  refine congrArg (m ((c : Thread nD τ).loc main_arg2)) ?_
  funext a
  apply Fin.ext
  match a with
  | ⟨0, _⟩ => show win0_2.index t (0 : Fin 2) * 512 + 1 * p.val = _; rw [e0]; show t.val / 16 * 512 + 1 * p.val = 512 * (t.val / 16) + p.val; omega
  | ⟨1, _⟩ => show win0_2.index t (1 : Fin 2) * 2048 + 1 * k.val = k.val; rw [e1]; omega

/-- The weight-noise block at step t. -/
theorem weight_noise_read (c : Dev nD) (t : Fin cfg0.N) (p : Fin 512) (k : Fin 2048) :
    (iblk m c 3 t : Vec F S512x2048 .f32) (ix2 p k) = m ((c : Thread nD τ).loc main_arg5) (ix2 (featRow (tileOf t) p) k) := by
  obtain ⟨e0, e1⟩ := index_weight3 t
  unfold iblk
  rw [View.read_apply]
  show V m c main_arg5 (((cfg0.win 3).blk t).view.emb (ix2 p k)) = _
  refine congrArg (m ((c : Thread nD τ).loc main_arg5)) ?_
  funext a
  apply Fin.ext
  match a with
  | ⟨0, _⟩ => show win0_3.index t (0 : Fin 2) * 512 + 1 * p.val = _; rw [e0]; show t.val / 16 * 512 + 1 * p.val = 512 * (t.val / 16) + p.val; omega
  | ⟨1, _⟩ => show win0_3.index t (1 : Fin 2) * 2048 + 1 * k.val = k.val; rw [e1]; omega

/-- The bias-mean block at step t: entry q is entry 512·(t / 16) + q of the vector. -/
theorem bias_mean_read (c : Dev nD) (t : Fin cfg0.N) (q : Fin 512) :
    (iblk m c 4 t : Vec F S512 .f32) (ix1 q) = m ((c : Thread nD τ).loc main_arg3) (ix1 (featRow (tileOf t) q)) := by
  have e0 := index_bias4 t
  unfold iblk
  rw [View.read_apply]
  show V m c main_arg3 (((cfg0.win 4).blk t).view.emb (ix1 q)) = _
  refine congrArg (m ((c : Thread nD τ).loc main_arg3)) ?_
  funext a
  apply Fin.ext
  match a with
  | ⟨0, _⟩ => show win0_4.index t (0 : Fin 1) * 512 + 1 * q.val = _; rw [e0]; show t.val / 16 * 512 + 1 * q.val = 512 * (t.val / 16) + q.val; omega

/-- The bias log-deviation block at step t. -/
theorem bias_logdev_read (c : Dev nD) (t : Fin cfg0.N) (q : Fin 512) :
    (iblk m c 5 t : Vec F S512 .f32) (ix1 q) = m ((c : Thread nD τ).loc main_arg4) (ix1 (featRow (tileOf t) q)) := by
  have e0 := index_bias5 t
  unfold iblk
  rw [View.read_apply]
  show V m c main_arg4 (((cfg0.win 5).blk t).view.emb (ix1 q)) = _
  refine congrArg (m ((c : Thread nD τ).loc main_arg4)) ?_
  funext a
  apply Fin.ext
  match a with
  | ⟨0, _⟩ => show win0_5.index t (0 : Fin 1) * 512 + 1 * q.val = _; rw [e0]; show t.val / 16 * 512 + 1 * q.val = 512 * (t.val / 16) + q.val; omega

/-- The bias-noise block at step t. -/
theorem bias_noise_read (c : Dev nD) (t : Fin cfg0.N) (q : Fin 512) :
    (iblk m c 6 t : Vec F S512 .f32) (ix1 q) = m ((c : Thread nD τ).loc main_arg6) (ix1 (featRow (tileOf t) q)) := by
  have e0 := index_bias6 t
  unfold iblk
  rw [View.read_apply]
  show V m c main_arg6 (((cfg0.win 6).blk t).view.emb (ix1 q)) = _
  refine congrArg (m ((c : Thread nD τ).loc main_arg6)) ?_
  funext a
  apply Fin.ext
  match a with
  | ⟨0, _⟩ => show win0_6.index t (0 : Fin 1) * 512 + 1 * q.val = _; rw [e0]; show t.val / 16 * 512 + 1 * q.val = 512 * (t.val / 16) + q.val; omega

/-! ## The result blocks -/

/-- Entry (p, q) of the first result's block at step t is entry (256·(t mod 16) + p, 512·(t / 16) + q) of the array. -/
theorem result7_emb (t : Fin cfg0.N) (p : Fin 256) (q : Fin 512) :
    ((cfg0.win 7).blk t).view.emb (ix2 p q) = ix2 (batchRow (stepOf t) p) (featRow (tileOf t) q) := by
  obtain ⟨e0, e1⟩ := index_result7 t
  funext a
  apply Fin.ext
  match a with
  | ⟨0, _⟩ => show win0_7.index t (0 : Fin 2) * 256 + 1 * p.val = _; rw [e0]; show t.val % 16 * 256 + 1 * p.val = 256 * (t.val % 16) + p.val; omega
  | ⟨1, _⟩ => show win0_7.index t (1 : Fin 2) * 512 + 1 * q.val = _; rw [e1]; show t.val / 16 * 512 + 1 * q.val = 512 * (t.val / 16) + q.val; omega

/-- The same for the second result. -/
theorem result8_emb (t : Fin cfg0.N) (p : Fin 256) (q : Fin 512) :
    ((cfg0.win 8).blk t).view.emb (ix2 p q) = ix2 (batchRow (stepOf t) p) (featRow (tileOf t) q) := by
  obtain ⟨e0, e1⟩ := index_result8 t
  funext a
  apply Fin.ext
  match a with
  | ⟨0, _⟩ => show win0_8.index t (0 : Fin 2) * 256 + 1 * p.val = _; rw [e0]; show t.val % 16 * 256 + 1 * p.val = 256 * (t.val % 16) + p.val; omega
  | ⟨1, _⟩ => show win0_8.index t (1 : Fin 2) * 512 + 1 * q.val = _; rw [e1]; show t.val / 16 * 512 + 1 * q.val = 512 * (t.val / 16) + q.val; omega

/-- The step whose result block holds entry (r, o): feature tile o / 512, batch tile r / 256. -/
def stepAt (i : S4096x2048.Idx) : Fin cfg0.N :=
  ⟨16 * ((i 1).val / 512) + (i 0).val / 256, by
    have h0 : (i 0).val < 4096 := (i 0).isLt
    have h1 : (i 1).val < 2048 := (i 1).isLt
    have hN : cfg0.N = 64 := N_0
    omega⟩

/-- Every entry of the first result lies in the block of its step. -/
theorem result7_cover (i : S4096x2048.Idx) :
    ∃ t : Fin cfg0.N, (cfg0.win 7).flush t = true ∧ i ∈ ((cfg0.win 7).blk t).view.set := by
  refine ⟨stepAt i, flush0_7 _, ?_⟩
  obtain ⟨e0, e1⟩ := index_result7 (stepAt i)
  have h0 : (i 0).val < 4096 := (i 0).isLt
  have h1 : (i 1).val < 2048 := (i 1).isLt
  have hv : (stepAt i).val = 16 * ((i 1).val / 512) + (i 0).val / 256 := rfl
  show i ∈ ((View.whole main_v0_0).slice (win0_7.rect (stepAt i))).set
  rw [View.set_slice_whole, Rect.mem_set_unit]
  intro a
  match a with
  | ⟨0, _⟩ =>
    show win0_7.index (stepAt i) (0 : Fin 2) * 256 ≤ (i 0).val ∧ (i 0).val < win0_7.index (stepAt i) (0 : Fin 2) * 256 + 256
    rw [e0, hv]; omega
  | ⟨1, _⟩ =>
    show win0_7.index (stepAt i) (1 : Fin 2) * 512 ≤ (i 1).val ∧ (i 1).val < win0_7.index (stepAt i) (1 : Fin 2) * 512 + 512
    rw [e1, hv]; omega

/-- Every entry of the second result lies in the block of its step. -/
theorem result8_cover (i : S4096x2048.Idx) :
    ∃ t : Fin cfg0.N, (cfg0.win 8).flush t = true ∧ i ∈ ((cfg0.win 8).blk t).view.set := by
  refine ⟨stepAt i, flush0_8 _, ?_⟩
  obtain ⟨e0, e1⟩ := index_result8 (stepAt i)
  have h0 : (i 0).val < 4096 := (i 0).isLt
  have h1 : (i 1).val < 2048 := (i 1).isLt
  have hv : (stepAt i).val = 16 * ((i 1).val / 512) + (i 0).val / 256 := rfl
  show i ∈ ((View.whole main_v0_1).slice (win0_8.rect (stepAt i))).set
  rw [View.set_slice_whole, Rect.mem_set_unit]
  intro a
  match a with
  | ⟨0, _⟩ =>
    show win0_8.index (stepAt i) (0 : Fin 2) * 256 ≤ (i 0).val ∧ (i 0).val < win0_8.index (stepAt i) (0 : Fin 2) * 256 + 256
    rw [e0, hv]; omega
  | ⟨1, _⟩ =>
    show win0_8.index (stepAt i) (1 : Fin 2) * 512 ≤ (i 1).val ∧ (i 1).val < win0_8.index (stepAt i) (1 : Fin 2) * 512 + 512
    rw [e1, hv]; omega

end Cert.KernelIdeal.Blocks

end
-- ==== Proof.Tables.lean ====
/-
  The two tables through the grid.

  The steps run feature tile by feature tile, sixteen batch tiles each. The first step of a feature tile j forms
  the sampled weight W and the variance S on that tile from the tile's parameter blocks; the fifteen steps that
  follow leave both untouched. So after ANY step t the two tables hold W and S on the feature tile t / 16 of that
  step — by induction along the steps: a first step (t a multiple of 16) sets them, and a later step has the same
  feature tile as the step before it.
-/
import proofs.«113625_j28011776705085_2_alg».proof.Proof.Gen.KernelIdeal.Frame
import proofs.«113625_j28011776705085_2_alg».proof.Proof.CaseValues
import proofs.«113625_j28011776705085_2_alg».proof.Proof.Tiles
import proofs.«113625_j28011776705085_2_alg».proof.Proof.Blocks

noncomputable section

open Idealize.ShloMosaic Idealize.ShloMosaic.TcCoe Idealize.SL.Sem Idealize.ShloMosaic.ValueIdx

namespace Cert.KernelIdeal.Tables

open Cert.KernelIdeal Cert.KernelIdeal.Gen Cert.KernelIdeal.CaseValues Cert.KernelIdeal.Blocks
open Cert.SampledLinear Cert.SampledLinear.Tiles

variable (m : (ℓ : Loc nD τ sig) → Buf (Elt Ideal) ℓ)

/-- The tables a first step forms are W and S on the step's feature tile. -/
theorem formed (c : Dev nD) (t : Fin cfg0.N) :
    k0_pay2 (F := Ideal) (iblk m c 1 t) (iblk m c 2 t) (iblk m c 3 t) = weightTile (m ((c : Thread nD τ).loc main_arg1)) (m ((c : Thread nD τ).loc main_arg2)) (m ((c : Thread nD τ).loc main_arg5)) (tileOf t)
    ∧ k0_pay3 (F := Ideal) (iblk m c 2 t) = varianceTile (m ((c : Thread nD τ).loc main_arg2)) (tileOf t) :=
  ⟨weight_table_eq (m ((c : Thread nD τ).loc main_arg1)) (m ((c : Thread nD τ).loc main_arg2)) (m ((c : Thread nD τ).loc main_arg5)) (tileOf t) (iblk m c 1 t) (iblk m c 2 t) (iblk m c 3 t)
      (weight_mean_read m c t) (weight_logdev_read m c t) (weight_noise_read m c t),
    variance_table_eq (m ((c : Thread nD τ).loc main_arg2)) (tileOf t) (iblk m c 2 t) (weight_logdev_read m c t)⟩

/-- After step n the tables hold W and S on the feature tile n / 16. -/
theorem after_step (c : Dev nD) : ∀ (n : ℕ) (hn : n < cfg0.N),
    (outsAt0 m c n hn).2.2.1 = weightTile (m ((c : Thread nD τ).loc main_arg1)) (m ((c : Thread nD τ).loc main_arg2)) (m ((c : Thread nD τ).loc main_arg5)) (tileOf ⟨n, hn⟩)
    ∧ (outsAt0 m c n hn).2.2.2 = varianceTile (m ((c : Thread nD τ).loc main_arg2)) (tileOf ⟨n, hn⟩)
  | 0, hn => by
    rw [outsAt0_A m c ⟨0, hn⟩ (Nat.zero_mod _)]
    dsimp only
    exact ⟨(first_weight c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) _).trans (formed m c ⟨0, hn⟩).1,
      (first_variance c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) _).trans (formed m c ⟨0, hn⟩).2⟩
  | n + 1, hn => by
    by_cases h0 : (n + 1) % 16 = 0
    · rw [outsAt0_A m c ⟨n + 1, hn⟩ h0]
      dsimp only
      exact ⟨(first_weight c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _).trans (formed m c ⟨n + 1, hn⟩).1,
        (first_variance c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _).trans (formed m c ⟨n + 1, hn⟩).2⟩
    · have ih := after_step c n (Nat.lt_of_succ_lt hn)
      have ht : tileOf (⟨n + 1, hn⟩ : Fin cfg0.N) = tileOf ⟨n, Nat.lt_of_succ_lt hn⟩ :=
        Fin.ext (by show (n + 1) / 16 = n / 16; omega)
      rw [outsAt0_B m c ⟨n + 1, hn⟩ h0, ht]
      dsimp only
      unfold sout0_B_0 sout0_B_1
      exact ih

/-- So a later step finds, left by the step before it, W and S on its own feature tile. -/
theorem found (c : Dev nD) (t : Fin cfg0.N) (h0 : ¬t.val % 16 = 0) :
    (outsAt0 m c (t.val - 1) (Nat.lt_of_le_of_lt (Nat.sub_le _ _) t.isLt)).2.2.1 = weightTile (m ((c : Thread nD τ).loc main_arg1)) (m ((c : Thread nD τ).loc main_arg2)) (m ((c : Thread nD τ).loc main_arg5)) (tileOf t)
    ∧ (outsAt0 m c (t.val - 1) (Nat.lt_of_le_of_lt (Nat.sub_le _ _) t.isLt)).2.2.2 = varianceTile (m ((c : Thread nD τ).loc main_arg2)) (tileOf t) := by
  have h := after_step m c (t.val - 1) (Nat.lt_of_le_of_lt (Nat.sub_le _ _) t.isLt)
  have ht : tileOf (⟨t.val - 1, Nat.lt_of_le_of_lt (Nat.sub_le _ _) t.isLt⟩ : Fin cfg0.N) = tileOf t :=
    Fin.ext (by show (t.val - 1) / 16 = t.val / 16; omega)
  rw [ht] at h
  exact h

end Cert.KernelIdeal.Tables

end
-- ==== Proof.LayerValue.lean ====
/-
  What the kernel's two result arrays hold after the run: the specification's output and deviation of the
  arguments as launched.

  At every step t the block written back to each result is formed from the batch block of batch tile t mod 16, the
  bias blocks of feature tile t / 16, and the step's table — formed at this very step when t is the first of its
  feature tile, found as the step before left it otherwise; either way the sampled weight (or the variance) on
  feature tile t / 16. So the block is the specification restricted to rows 256·(t mod 16) … and features
  512·(t / 16) …, and since the 64 blocks tile the 4096 × 2048 array, each result array ends as the
  specification's array.
-/
import proofs.«113625_j28011776705085_2_alg».proof.Proof.Gen.KernelIdeal.Value
import proofs.«113625_j28011776705085_2_alg».proof.Proof.CaseValues
import proofs.«113625_j28011776705085_2_alg».proof.Proof.Tiles
import proofs.«113625_j28011776705085_2_alg».proof.Proof.Blocks
import proofs.«113625_j28011776705085_2_alg».proof.Proof.Tables

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.CaseValues Cert.KernelIdeal.Blocks Cert.KernelIdeal.Tables
open Cert.SampledLinear Cert.SampledLinear.Tiles

variable (m : (ℓ : Loc nD τ sig) → Buf (Elt Ideal) ℓ) (ρ : Dev nD → PrngReg)

/-- The specification's output of core c's arguments as launched. -/
abbrev outputOf (c : Dev nD) : BatchArr := output (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (m ((c : Thread nD τ).loc main_arg6))

/-- The specification's deviation of core c's arguments as launched. -/
abbrev deviationOf (c : Dev nD) : BatchArr := deviation (m ((c : Thread nD τ).loc main_arg0)) (m ((c : Thread nD τ).loc main_arg2)) (m ((c : Thread nD τ).loc main_arg4))

/-- A first-result block formed from W on the step's feature tile is the step's block of the output. -/
theorem output_block (c : Dev nD) (t : Fin cfg0.N) :
    (cfg0.win 7).cut (grid0.coords t) (k0_pay5 (F := Ideal) (iblk m c 0 t) (iblk m c 4 t) (iblk m c 5 t) (iblk m c 6 t)
        (weightTile (m ((c : Thread nD τ).loc main_arg1)) (m ((c : Thread nD τ).loc main_arg2)) (m ((c : Thread nD τ).loc main_arg5)) (tileOf t)))
      = ((cfg0.win 7).blk t).view.read (Elt Ideal) (outputOf m c) := by
  refine funext fun (y : S256x512.Idx) => ?_
  obtain ⟨p, q, rfl⟩ : ∃ (p : Fin 256) (q : Fin 512), y = ix2 p q := ⟨y 0, y 1, eq_ix2 y⟩
  rw [View.read_apply]
  show k0_pay5 (F := Ideal) _ _ _ _ _ (ix2 p q) = outputOf m c (((cfg0.win 7).blk t).view.emb (ix2 p q))
  rw [result7_emb]
  exact output_block_eq (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (m ((c : Thread nD τ).loc main_arg6)) (stepOf t) (tileOf t)
    (iblk m c 0 t) (iblk m c 4 t) (iblk m c 5 t) (iblk m c 6 t)
    (batch_read m c t) (bias_mean_read m c t) (bias_logdev_read m c t) (bias_noise_read m c t) p q

/-- A second-result block formed from S on the step's feature tile is the step's block of the deviation. -/
theorem deviation_block (c : Dev nD) (t : Fin cfg0.N) :
    (cfg0.win 8).cut (grid0.coords t) (k0_pay6 (F := Ideal) (iblk m c 0 t) (iblk m c 5 t)
        (varianceTile (m ((c : Thread nD τ).loc main_arg2)) (tileOf t)))
      = ((cfg0.win 8).blk t).view.read (Elt Ideal) (deviationOf m c) := by
  refine funext fun (y : S256x512.Idx) => ?_
  obtain ⟨p, q, rfl⟩ : ∃ (p : Fin 256) (q : Fin 512), y = ix2 p q := ⟨y 0, y 1, eq_ix2 y⟩
  rw [View.read_apply]
  show k0_pay6 (F := Ideal) _ _ _ (ix2 p q) = deviationOf m c (((cfg0.win 8).blk t).view.emb (ix2 p q))
  rw [result8_emb]
  exact deviation_block_eq (m ((c : Thread nD τ).loc main_arg0)) (m ((c : Thread nD τ).loc main_arg2)) (m ((c : Thread nD τ).loc main_arg4)) (stepOf t) (tileOf t)
    (iblk m c 0 t) (iblk m c 5 t) (batch_read m c t) (bias_logdev_read m c t) p q

/-- What step t writes back to the first result is its block of the output. -/
theorem written7 (c : Dev nD) (t : Fin cfg0.N) :
    (dats m 0 c).flushed 7 t = ((cfg0.win 7).blk t).view.read (Elt Ideal) (outputOf m c) := by
  by_cases h0 : t.val % 16 = 0
  · rw [Value.flushed7_A m c t h0, first_output c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) _, (formed m c t).1]
    exact output_block m c t
  · rw [Value.flushed7_B m c t h0, later_output c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _,
      (found m c t h0).1]
    exact output_block m c t

/-- What step t writes back to the second result is its block of the deviation. -/
theorem written8 (c : Dev nD) (t : Fin cfg0.N) :
    (dats m 0 c).flushed 8 t = ((cfg0.win 8).blk t).view.read (Elt Ideal) (deviationOf m c) := by
  by_cases h0 : t.val % 16 = 0
  · rw [Value.flushed8_A m c t h0, first_deviation c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) _, (formed m c t).2]
    exact deviation_block m c t
  · rw [Value.flushed8_B m c t h0, later_deviation c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _,
      (found m c t h0).2]
    exact deviation_block m c t

/-- The first result array after the run. -/
theorem final7 (c : Dev nD) : (dats m 0 c).arrAt 7 cfg0.N = outputOf m c :=
  (dats m 0 c).arrAt_eq_of_cover 7 (outputOf m c) (fun t _ => written7 m c t) result7_cover

/-- The second result array after the run. -/
theorem final8 (c : Dev nD) : (dats m 0 c).arrAt 8 cfg0.N = deviationOf m c :=
  (dats m 0 c).arrAt_eq_of_cover 8 (deviationOf m c) (fun t _ => written8 m c t) result8_cover

/-- Every weakly fair execution of the kernel's program ends with the two results at the specification's arrays of
    the arguments as launched, and the arguments unchanged. -/
theorem run : θ_run defs (onTc (τ := τ) (main (F := Ideal))) ⟨m, fun _ => 0, ρ⟩ fun r => ∀ c : Dev nD,
      r.2.mem ((c : Thread nD τ).loc main_v0_0) = outputOf m c
      ∧ r.2.mem ((c : Thread nD τ).loc main_v0_1) = deviationOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.LayerValue

end
-- ==== Proof.RefValue.lean ====
/-
  The reference computes the specification.

  Read one operation at a time, the reference's first result at (r, o) is the contraction over k of the batch at
  (r, k) with μ_w + e^{λ_w} · ε_w at (o, k) — both operands contracted on their last axis — plus the sampled bias
  spread over the rows, and its second result is the square root of the contraction of the squared batch with
  e^{λ_w} · e^{λ_w}, plus the spread bias variance: the specification's formulas term by term. The host's
  exponential and square root are, on the extended reals, the same functions the specification names.
-/
import proofs.«113625_j28011776705085_2_alg».proof.Proof.Gen.ReferenceIdeal.Read
import proofs.«113625_j28011776705085_2_alg».proof.Proof.Spec

noncomputable section

open scoped BigOperators
open Idealize.ShloMosaic Idealize.ShloMosaic.ValueIdx

namespace Cert.ReferenceIdeal.RefValue

open Cert.ReferenceIdeal Cert.ReferenceIdeal.Read Cert.SampledLinear

variable (x : (⟨S4096x2048, .f32⟩ : BufTy).Contents (Elt Ideal))
  (wmu wls eps : (⟨S2048x2048, .f32⟩ : BufTy).Contents (Elt Ideal))
  (bmu bls epsb : (⟨S2048, .f32⟩ : BufTy).Contents (Elt Ideal))

/-- The left operand of either contraction at output entry (r, o) and term k: entry (r, k). -/
theorem left_index6 (r : Fin 4096) (o k : Fin 2048) : lidx_main_v6 (ix2 r o) k = ix2 r k :=
  funext fun a => Fin.ext (by match a with | ⟨0, _⟩ => rfl | ⟨1, _⟩ => rfl)
/-- The right operand: entry (o, k). -/
theorem right_index6 (r : Fin 4096) (o k : Fin 2048) : ridx_main_v6 (ix2 r o) k = ix2 o k :=
  funext fun a => Fin.ext (by match a with | ⟨0, _⟩ => rfl | ⟨1, _⟩ => rfl)
theorem left_index12 (r : Fin 4096) (o k : Fin 2048) : lidx_main_v12 (ix2 r o) k = ix2 r k :=
  funext fun a => Fin.ext (by match a with | ⟨0, _⟩ => rfl | ⟨1, _⟩ => rfl)
theorem right_index12 (r : Fin 4096) (o k : Fin 2048) : ridx_main_v12 (ix2 r o) k = ix2 o k :=
  funext fun a => Fin.ext (by match a with | ⟨0, _⟩ => rfl | ⟨1, _⟩ => rfl)
/-- A vector spread over the rows reads, at (r, o), its entry o. -/
theorem spread_index (r : Fin 4096) (o : Fin 2048) : idx_main_v7 (idx_main_v8 (ix2 r o)) = ix1 o :=
  funext fun a => Fin.ext (by match a with | ⟨0, _⟩ => rfl)
theorem spread_index' (r : Fin 4096) (o : Fin 2048) : idx_main_v14 (idx_main_v15 (ix2 r o)) = ix1 o :=
  funext fun a => Fin.ext (by match a with | ⟨0, _⟩ => rfl)

/-- The reference's first result is the specification's output. -/
theorem output_eq : val_main_v9 (F := Ideal) x wmu wls bmu bls eps epsb = output x wmu wls eps bmu bls epsb := by
  funext i
  obtain ⟨r, o, rfl⟩ : ∃ (r : Fin 4096) (o : Fin 2048), i = ix2 r o := ⟨i 0, i 1, eq_ix2 i⟩
  rw [output_ix2, val_main_v9_apply, val_main_v6_apply, val_main_v8_apply, val_main_v7_apply, spread_index,
    val_main_v5_apply, val_main_v4_apply, val_main_v1_apply]
  unfold outputAt bias
  refine congrArg₂ (· + ·) (Finset.sum_congr rfl fun k _ => ?_) rfl
  rw [left_index6, right_index6, val_main_v3_apply, val_main_v2_apply, val_main_v0_apply]
  rfl

/-- The reference's second result is the specification's deviation. -/
theorem deviation_eq : val_main_v17 (F := Ideal) x wls bls = deviation x wls bls := by
  funext i
  obtain ⟨r, o, rfl⟩ : ∃ (r : Fin 4096) (o : Fin 2048), i = ix2 r o := ⟨i 0, i 1, eq_ix2 i⟩
  rw [deviation_ix2, val_main_v17_apply, val_main_v16_apply, val_main_v12_apply, val_main_v15_apply, val_main_v14_apply,
    spread_index', val_main_v13_apply, val_main_v1_apply]
  unfold deviationAt biasVar
  refine congrArg Ideal.sqrt (congrArg₂ (· + ·) (Finset.sum_congr rfl fun k _ => ?_) rfl)
  rw [left_index12, right_index12, val_main_v10_apply, val_main_v11_apply, val_main_v0_apply]
  rfl

end Cert.ReferenceIdeal.RefValue

end
-- ==== Proof.lean ====
/-
  A linear layer with weights and bias sampled by reparameterisation, with the standard deviation its parameters'
  noise propagates to the result, computed tile by tile on a 4 × 16 grid (output-feature tiles outermost), against
  the same two formulas written as whole-array operations.

  For the batch x (4096 × 2048) and, per output feature o and input feature k, the sampled weight
  W (o, k) = μ_w + e^{λ_w} · ε_w, its variance S (o, k) = e^{λ_w} · e^{λ_w}, the sampled bias b (o) = μ_b + e^{λ_b} · ε_b
  and its variance s (o) = e^{λ_b} · e^{λ_b}, both programs return
      output (r, o) = ∑ₖ x (r, k) · W (o, k) + b (o)       and       deviation (r, o) = √(∑ₖ x (r, k)² · S (o, k) + s (o)).

  The tiled program forms W and S for a tile of 512 output features once, at the first of the tile's sixteen batch
  tiles, and keeps them for the other fifteen; each step contracts a 256-row batch block with the kept tables (on
  the last axis of both, so that no transpose is formed) and adds the bias terms spread over the rows. On the
  extended reals the narrowing of the tables' float format is the identity, a contraction into a zero accumulator
  is the plain sum of products, and the exponential and the square root are the same functions in both programs;
  so the two sides agree term by term, with no law of arithmetic that could fail at an infinity: finiteness of the
  arguments is not used. The step-by-step reasoning is in the imported modules: what one step leaves (CaseValues),
  its arithmetic entry by entry (PayloadAt), the tiling (Tiles, Blocks), the tables along the grid (Tables), the
  result arrays (LayerValue), and the whole-array program (RefValue), all against one specification (Spec).

  Each program also runs to completion from any memory, without a fault, leaving its arguments unchanged; and the
  program read at the extended reals is the printed one unchanged, so nothing is owed for the idealization.
-/
import proofs.«113625_j28011776705085_2_alg».proof.Defs
import proofs.«113625_j28011776705085_2_alg».proof.Proof.Gen.Kernel
import proofs.«113625_j28011776705085_2_alg».proof.Proof.Gen.Kernel.Skeleton
import proofs.«113625_j28011776705085_2_alg».proof.Proof.Gen.Kernel.Launch
import proofs.«113625_j28011776705085_2_alg».proof.Proof.Gen.Kernel.Points
import proofs.«113625_j28011776705085_2_alg».proof.Proof.Gen.Kernel.Frame
import proofs.«113625_j28011776705085_2_alg».proof.Proof.Gen.KernelIdeal
import proofs.«113625_j28011776705085_2_alg».proof.Proof.Gen.KernelIdeal.Skeleton
import proofs.«113625_j28011776705085_2_alg».proof.Proof.Gen.KernelIdeal.Launch
import proofs.«113625_j28011776705085_2_alg».proof.Proof.Gen.KernelIdeal.Points
import proofs.«113625_j28011776705085_2_alg».proof.Proof.Gen.KernelIdeal.Frame
import proofs.«113625_j28011776705085_2_alg».proof.Proof.Gen.ReferenceIdeal
import proofs.«113625_j28011776705085_2_alg».proof.Proof.Gen.Pre_finite_inputs
import proofs.«113625_j28011776705085_2_alg».proof.Proof.Gen.KernelIdeal.Value
import proofs.«113625_j28011776705085_2_alg».proof.Proof.Gen.ReferenceIdeal.Run
import proofs.«113625_j28011776705085_2_alg».proof.Proof.Gen.ReferenceIdeal.Read
import proofs.«113625_j28011776705085_2_alg».proof.Proof.LayerValue
import proofs.«113625_j28011776705085_2_alg».proof.Proof.RefValue
import Idealize.ShloMosaic.Adequacy
import Idealize.ShloMosaic.Init

noncomputable section

namespace Cert.Proof

open Idealize.ShloMosaic Idealize.ShloMosaic.TcCoe Idealize.SL.Sem

/-- The tiled program as printed runs to completion and leaves its arguments unchanged. -/
theorem frame_kernel : Cert.frame_Kernel := fun m ρ _ => Cert.Kernel.Gen.frame m ρ

/-- So does the tiled program read at the extended reals. -/
theorem frame_ideal : Cert.frame_KernelIdeal := fun m ρ _ => Cert.KernelIdeal.Gen.frame m ρ

/-- So does the whole-array program: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The program read at the extended reals is the printed program's own text: nothing was rewritten. -/
theorem preserves : Cert.preserves_Kernel_KernelIdeal := trivial

/-- From memories that agree on the seven arguments both programs end with the specification's output and
    deviation of those arguments. -/
theorem algebraic : Cert.algebraic_KernelIdeal_ReferenceIdeal := by
  intro m ρ m' ρ' _ hagree
  refine ⟨fun c => Cert.KernelIdeal.LayerValue.outputOf m c, fun c => Cert.KernelIdeal.LayerValue.deviationOf m c,
    Cert.KernelIdeal.LayerValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v9_eq, Cert.ReferenceIdeal.RefValue.output_eq, a0, a1, a2, a3, a4, a5, a6]
  · obtain ⟨a0, a1, a2, a3, a4, a5, a6⟩ := hagree c
    rw [Cert.ReferenceIdeal.Read.val_main_v17_eq, Cert.ReferenceIdeal.RefValue.deviation_eq, a0, a2, a4]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
